-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x1024 : Shape := ⟨2, ![16384, 1024]⟩
abbrev S1000x1024 : Shape := ⟨2, ![1000, 1024]⟩
abbrev S_ : Shape := ⟨0, ![]⟩

class Facts : Prop where
  bcast_S_S16384x1024 : S_.BroadcastsInDim S16384x1024 (![] : Fin 0 → Fin S16384x1024.rank)
  reducesTo_S16384x1024_S_d0_1 : S16384x1024.ReducesTo [0, 1] S_
  h_S_ : 0 < S_.numel
  bcast_S_S1000x1024 : S_.BroadcastsInDim S1000x1024 (![] : Fin 0 → Fin S1000x1024.rank)
  reducesTo_S1000x1024_S_d0_1 : S1000x1024.ReducesTo [0, 1] S_

variable [Facts]

def fn {F : FTy → Type} [FloatOps F] (main_arg0 : FVec F S16384x1024 .f32) (main_arg1 : FVec F S1000x1024 .f32) : IVec S_ 1 :=
  let main_v0 : FVec F S16384x1024 .f32 := Host.absf main_arg0
  let main_cst : FVec F S_ .f32 := constant S_ .f32 0x7F800000#32
  let main_v1 : FVec F S16384x1024 .f32 := broadcastInDim S16384x1024 ![] bcast_S_S16384x1024 main_cst
  let main_v2 : IVec S16384x1024 1 := cmpf .olt main_v0 main_v1
  let main_c : IVec S_ 1 := constantI S_ 1 1#1
  let main_v3 : IVec S_ 1 := (fun x v => Host.reduce IntOp.andi x v reducesTo_S16384x1024_S_d0_1 h_S_) main_v2 main_c
  let main_v4 : FVec F S1000x1024 .f32 := Host.absf main_arg1
  let main_cst_0 : FVec F S_ .f32 := constant S_ .f32 0x7F800000#32
  let main_v5 : FVec F S1000x1024 .f32 := broadcastInDim S1000x1024 ![] bcast_S_S1000x1024 main_cst_0
  let main_v6 : IVec S1000x1024 1 := cmpf .olt main_v4 main_v5
  let main_c_1 : IVec S_ 1 := constantI S_ 1 1#1
  let main_v7 : IVec S_ 1 := (fun x v => Host.reduce IntOp.andi x v reducesTo_S1000x1024_S_d0_1 h_S_) main_v6 main_c_1
  let main_v8 : IVec S_ 1 := andi main_v3 main_v7
  main_v8
-- ==== Kernel.lean ====
abbrev S16384x1024 : Shape := ⟨2, ![16384, 1024]⟩
abbrev S1000x1024 : Shape := ⟨2, ![1000, 1024]⟩
abbrev S_ : Shape := ⟨0, ![]⟩
abbrev S1000 : Shape := ⟨1, ![1000]⟩
abbrev S1000x1 : Shape := ⟨2, ![1000, 1]⟩
abbrev S1x1000 : Shape := ⟨2, ![1, 1000]⟩
abbrev S16384x1000 : Shape := ⟨2, ![16384, 1000]⟩
abbrev S1024x1024 : Shape := ⟨2, ![1024, 1024]⟩
abbrev S1024x1000 : Shape := ⟨2, ![1024, 1000]⟩
abbrev S1024 : Shape := ⟨1, ![1024]⟩
abbrev S1024x1 : Shape := ⟨2, ![1024, 1]⟩

abbrev nBuf : Space → Nat
  | .hbm => 12
  | .vmem => 6
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S1000x1024, .f32⟩
  | .hbm, ⟨3, _⟩ => ⟨S_, .f32⟩
  | .hbm, ⟨4, _⟩ => ⟨S1000, .f32⟩
  | .hbm, ⟨5, _⟩ => ⟨S1000x1, .f32⟩
  | .hbm, ⟨6, _⟩ => ⟨S1x1000, .f32⟩
  | .hbm, ⟨7, _⟩ => ⟨S_, .f32⟩
  | .hbm, ⟨8, _⟩ => ⟨S1000x1024, .f32⟩
  | .hbm, ⟨9, _⟩ => ⟨S1000x1024, .f32⟩
  | .hbm, ⟨10, _⟩ => ⟨S1000x1024, .bf16⟩
  | .hbm, ⟨11, _⟩ => ⟨S16384x1000, .f32⟩
  | .local _ .vmem, ⟨0, _⟩ => ⟨S1024x1024, .f32⟩
  | .local _ .vmem, ⟨1, _⟩ => ⟨S1024x1024, .f32⟩
  | .local _ .vmem, ⟨2, _⟩ => ⟨S1000x1024, .bf16⟩
  | .local _ .vmem, ⟨3, _⟩ => ⟨S1x1000, .f32⟩
  | .local _ .vmem, ⟨4, _⟩ => ⟨S1024x1000, .f32⟩
  | .local _ .vmem, ⟨5, _⟩ => ⟨S1024x1000, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1000x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  reducesTo_S1000x1024_S1000_d1 : S1000x1024.ReducesTo [1] S1000
  h_S_ : 0 < S_.numel
  bcast_S1000_S1000x1_0 : S1000.BroadcastsInDim S1000x1 (![0] : Fin 1 → Fin S1000x1.rank)
  transposes_S1000x1_S1x1000_1_0 : S1000x1.Transposes [1, 0] S1x1000
  bcast_S_S1000x1024 : S_.BroadcastsInDim S1000x1024 (![] : Fin 0 → Fin S1000x1024.rank)
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  reduces_S1024x1024_S1024 : S1024x1024.Reduces [1] S1024
  shapeCasts_S1024_S1024x1 : S1024.ShapeCasts S1024x1
  inb_S1000x1024_S1000x1024_0_0 : ∀ a, (![0, 0] : Fin 2 → Nat) a + S1000x1024.size a ≤ S1000x1024.size a
  h_S1000x1024 : 0 < S1000x1024.numel
  shapeCasts_S1000x1024_S1000x1024 : S1000x1024.ShapeCasts S1000x1024
  inb_S1x1000_S1x1000_0_0 : ∀ a, (![0, 0] : Fin 2 → Nat) a + S1x1000.size a ≤ S1x1000.size a
  h_S1x1000 : 0 < S1x1000.numel
  shapeCasts_S1x1000_S1x1000 : S1x1000.ShapeCasts S1x1000
  broadcasts_S1024x1_S1024x1000 : S1024x1.Broadcasts S1024x1000
  broadcasts_S1x1000_S1024x1000 : S1x1000.Broadcasts S1024x1000
  inb_S1024x1000_S1024x1000_0_0 : ∀ a, (![0, 0] : Fin 2 → Nat) a + S1024x1000.size a ≤ S1024x1000.size a
  h_S1024x1000 : 0 < S1024x1000.numel
  dot_S1024x1024_S1000x1024_S1024x1000_1_1_0_0_n_n_wf : DotDims.WF S1024x1024 S1000x1024 S1024x1000 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1000x1024.size a ≤ S1000x1024.size a
  hwx0_1 : ∀ i : grid0.Coords, EltTy.bits .bf16 = 32 ∨ (Rect.block (s := S1000x1024) S1000x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1000.size a ≤ S1x1000.size a
  hwx0_2 : ∀ i : grid0.Coords, EltTy.bits .f32 = 32 ∨ (Rect.block (s := S1x1000) S1x1000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x1000.size a ≤ S16384x1000.size a
  hwx0_3 : ∀ i : grid0.Coords, EltTy.bits .f32 = 32 ∨ (Rect.block (s := S16384x1000) S1024x1000.size (cc0_transform_3 i) (hinb0_3 i)).WholeWords (EltTy.packing .f32)

variable [Facts₀]

def dot_S1024x1024_S1000x1024_S1024x1000_1_1_0_0_n_n : DotDims S1024x1024 S1000x1024 S1024x1000 where
  lhsContracting := [1]
  rhsContracting := [1]
  lhsNonContracting := [0]
  rhsNonContracting := [0]
  lhsBatch := []
  rhsBatch := []
  wf := dot_S1024x1024_S1000x1024_S1024x1000_1_1_0_0_n_n_wf

abbrev win0_0 : Pipeline.Window sig grid0 :=
  Pipeline.Window.ofSpec (Memref.whole main_arg0) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S1000x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3) S1x1000.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v7) S1024x1000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16384x1024 : Shape := ⟨2, ![16384, 1024]⟩
abbrev S1000x1024 : Shape := ⟨2, ![1000, 1024]⟩
abbrev S_ : Shape := ⟨0, ![]⟩
abbrev S16384 : Shape := ⟨1, ![16384]⟩
abbrev S16384x1 : Shape := ⟨2, ![16384, 1]⟩
abbrev S1000 : Shape := ⟨1, ![1000]⟩
abbrev S1x1000 : Shape := ⟨2, ![1, 1000]⟩
abbrev S16384x1000 : Shape := ⟨2, ![16384, 1000]⟩
abbrev S1024x1000 : Shape := ⟨2, ![1024, 1000]⟩

abbrev nBuf : Space → Nat
  | .hbm => 22
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1000x1024, .f32⟩
  | .hbm, ⟨2, _⟩ => ⟨S16384x1024, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1000x1024, .f32⟩
  | .hbm, ⟨7, _⟩ => ⟨S_, .f32⟩
  | .hbm, ⟨8, _⟩ => ⟨S1000, .f32⟩
  | .hbm, ⟨9, _⟩ => ⟨S1x1000, .f32⟩
  | .hbm, ⟨10, _⟩ => ⟨S16384x1000, .f32⟩
  | .hbm, ⟨11, _⟩ => ⟨S16384x1000, .f32⟩
  | .hbm, ⟨12, _⟩ => ⟨S16384x1000, .f32⟩
  | .hbm, ⟨13, _⟩ => ⟨S1024x1000, .f32⟩
  | .hbm, ⟨14, _⟩ => ⟨S16384x1000, .f32⟩
  | .hbm, ⟨15, _⟩ => ⟨S_, .f32⟩
  | .hbm, ⟨16, _⟩ => ⟨S16384x1000, .f32⟩
  | .hbm, ⟨17, _⟩ => ⟨S16384x1000, .f32⟩
  | .hbm, ⟨18, _⟩ => ⟨S16384x1000, .f32⟩
  | .hbm, ⟨19, _⟩ => ⟨S_, .f32⟩
  | .hbm, ⟨20, _⟩ => ⟨S16384x1000, .f32⟩
  | .hbm, ⟨21, _⟩ => ⟨S16384x1000, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_2 : Ref sig .tc := ⟨.hbm, 19, rfl⟩
abbrev main_v14 : Ref sig .tc := ⟨.hbm, 20, rfl⟩
abbrev main_v15 : Ref sig .tc := ⟨.hbm, 21, rfl⟩

abbrev nD : Nat := 1
abbrev τ : Topo := Topo.v7x

variable {F : FTy → Type} [FloatOps F]

class Facts₀ : Prop where
  reducesTo_S16384x1024_S16384_d1 : S16384x1024.ReducesTo [1] S16384
  h_S_ : 0 < S_.numel
  bcast_S16384_S16384x1_0 : S16384.BroadcastsInDim S16384x1 (![0] : Fin 1 → Fin S16384x1.rank)
  reducesTo_S1000x1024_S1000_d1 : S1000x1024.ReducesTo [1] S1000
  bcast_S1000_S1x1000_1 : S1000.BroadcastsInDim S1x1000 (![1] : Fin 1 → Fin S1x1000.rank)
  bcast_S16384x1_S16384x1000_0_1 : S16384x1.BroadcastsInDim S16384x1000 (![0, 1] : Fin 2 → Fin S16384x1000.rank)
  bcast_S1x1000_S16384x1000_0_1 : S1x1000.BroadcastsInDim S16384x1000 (![0, 1] : Fin 2 → Fin S16384x1000.rank)
  transposes_S1000x1024_S1024x1000_1_0 : S1000x1024.Transposes [1, 0] S1024x1000
  bcast_S_S16384x1000 : S_.BroadcastsInDim S16384x1000 (![] : Fin 0 → Fin S16384x1000.rank)
  dot_S16384x1024_S1024x1000_S16384x1000_1_0_0_1_n_n_wf : DotDims.WF S16384x1024 S1024x1000 S16384x1000 [1] [0] [0] [1] [] []

variable [Facts₀]

def dot_S16384x1024_S1024x1000_S16384x1000_1_0_0_1_n_n : DotDims S16384x1024 S1024x1000 S16384x1000 where
  lhsContracting := [1]
  rhsContracting := [0]
  lhsNonContracting := [0]
  rhsNonContracting := [1]
  lhsBatch := []
  rhsBatch := []
  wf := dot_S16384x1024_S1024x1000_S16384x1000_1_0_0_1_n_n_wf

class Facts : Prop extends Facts₀ where

variable [Facts]
-- ==== Proof.SquaredDistance.lean ====
/-
  Pairwise squared Euclidean distances between the rows of two matrices, as one function of the two matrices.

  For an embedding matrix `e` of shape [16384, 1024] and a matrix of class centres `c` of shape [1000, 1024], entry (p, q)
  of the result is max(|e_p|² + |c_q|² - 2 · ⟨e_p, c_q⟩, 0), with |x|² the sum of the squares of a row and ⟨·,·⟩ the sum of
  products along the rows. The same number can be arranged with the factor -2 applied to every entry of the centre row
  BEFORE the products are summed: |e_p|² + |c_q|² + Σ_k e[p,k] · (-2 · c[q,k]). On the extended reals the two arrangements
  agree when every entry is a real number: a factor moves across a finite sum of reals (distributivity), which fails once
  an infinity is among the summands.
-/
import Idealize.ShloMosaic.Lib.ValueIdx

noncomputable section

namespace Cert.SquaredDistance

open Idealize.ShloMosaic Idealize.ShloMosaic.ValueIdx

/-! ## Finite sums of reals inside the extended reals -/

/-- The inclusion of the reals in the extended reals commutes with finite sums. -/
theorem coe_sum {ι : Type*} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Over the reals, the factor -2 applied to each second factor of a sum of products comes out as minus twice the sum. -/
theorem scaled_cross_real {ι : Type*} [Fintype ι] (a b : ι → ℝ) :
    ∑ k, ((a k : ℝ) : EReal) * (((-2 : ℝ) : EReal) * ((b k : ℝ) : EReal))
      = -(((2 : ℝ) : EReal) * ∑ k, ((a k : ℝ) : EReal) * ((b k : ℝ) : EReal)) := by
  simp only [← EReal.coe_mul, ← coe_sum, ← EReal.coe_neg]
  refine congrArg _ ?_
  rw [Finset.mul_sum, ← Finset.sum_neg_distrib]
  exact Finset.sum_congr rfl fun k _ => by ring

/-- An extended real that is neither infinity is a real number. -/
theorem exists_real_of_finite {ι : Type*} (a : ι → EReal) (ha : ∀ k, a k ≠ ⊤ ∧ a k ≠ ⊥) :
    ∃ a' : ι → ℝ, a = fun k => ((a' k : ℝ) : EReal) :=
  ⟨fun k => (a k).toReal, funext fun k => (EReal.coe_toReal (ha k).1 (ha k).2).symm⟩

/-- The same law for families of extended reals none of which is infinite. -/
theorem scaled_cross {ι : Type*} [Fintype ι] (a b : ι → EReal) (ha : ∀ k, a k ≠ ⊤ ∧ a k ≠ ⊥) (hb : ∀ k, b k ≠ ⊤ ∧ b k ≠ ⊥) :
    ∑ k, a k * (((-2 : ℝ) : EReal) * b k) = -(((2 : ℝ) : EReal) * ∑ k, a k * b k) := by
  obtain ⟨a', rfl⟩ := exists_real_of_finite a ha
  obtain ⟨b', rfl⟩ := exists_real_of_finite b hb
  exact scaled_cross_real a' b'

/-! ## The distance matrix -/

/-- The sum of the squares of row `p` of an [n, K] matrix. -/
def rowSq {n K : ℕ} (x : (⟨2, ![n, K]⟩ : Shape).Idx → EReal) (p : Fin n) : EReal :=
  ∑ k : Fin K, x (ix2 p k) * x (ix2 p k)

/-- The sum of products of row `p` of one matrix with row `q` of another, both of row length K. -/
def cross {n n' K : ℕ} (x : (⟨2, ![n, K]⟩ : Shape).Idx → EReal) (y : (⟨2, ![n', K]⟩ : Shape).Idx → EReal)
    (p : Fin n) (q : Fin n') : EReal :=
  ∑ k : Fin K, x (ix2 p k) * y (ix2 q k)

/-- Entry (p, q): the squared distance between embedding row `p` and centre row `q`, clamped at zero. -/
def distAt (e : (⟨2, ![16384, 1024]⟩ : Shape).Idx → EReal) (c : (⟨2, ![1000, 1024]⟩ : Shape).Idx → EReal)
    (p : Fin 16384) (q : Fin 1000) : EReal :=
  max (rowSq e p + rowSq c q - ((2 : ℝ) : EReal) * cross e c p q) 0

/-- The same entry with the factor -2 applied to the centre row before the products are summed. -/
def scaledDistAt (e : (⟨2, ![16384, 1024]⟩ : Shape).Idx → EReal) (c : (⟨2, ![1000, 1024]⟩ : Shape).Idx → EReal)
    (p : Fin 16384) (q : Fin 1000) : EReal :=
  max (rowSq e p + rowSq c q + ∑ k : Fin 1024, e (ix2 p k) * (((-2 : ℝ) : EReal) * c (ix2 q k))) 0

/-- The whole [16384, 1000] matrix of clamped squared distances. -/
def dist (e : (⟨2, ![16384, 1024]⟩ : Shape).Idx → EReal) (c : (⟨2, ![1000, 1024]⟩ : Shape).Idx → EReal) :
    (⟨2, ![16384, 1000]⟩ : Shape).Idx → EReal :=
  fun j => distAt e c (j 0) (j 1)

/-- The whole matrix in the arrangement with the centres scaled first. -/
def scaledDist (e : (⟨2, ![16384, 1024]⟩ : Shape).Idx → EReal) (c : (⟨2, ![1000, 1024]⟩ : Shape).Idx → EReal) :
    (⟨2, ![16384, 1000]⟩ : Shape).Idx → EReal :=
  fun j => scaledDistAt e c (j 0) (j 1)

theorem dist_ix2 (e : (⟨2, ![16384, 1024]⟩ : Shape).Idx → EReal) (c : (⟨2, ![1000, 1024]⟩ : Shape).Idx → EReal)
    (p : Fin 16384) (q : Fin 1000) : dist e c (ix2 p q) = distAt e c p q := rfl

theorem scaledDist_ix2 (e : (⟨2, ![16384, 1024]⟩ : Shape).Idx → EReal) (c : (⟨2, ![1000, 1024]⟩ : Shape).Idx → EReal)
    (p : Fin 16384) (q : Fin 1000) : scaledDist e c (ix2 p q) = scaledDistAt e c p q := rfl

/-- When every entry of both matrices is a real number, the two arrangements are the same matrix. -/
theorem scaledDist_eq_dist (e : (⟨2, ![16384, 1024]⟩ : Shape).Idx → EReal) (c : (⟨2, ![1000, 1024]⟩ : Shape).Idx → EReal)
    (he : ∀ i, e i ≠ ⊤ ∧ e i ≠ ⊥) (hc : ∀ i, c i ≠ ⊤ ∧ c i ≠ ⊥) : scaledDist e c = dist e c := by
  funext j
  show scaledDistAt e c (j 0) (j 1) = distAt e c (j 0) (j 1)
  unfold scaledDistAt distAt cross
  rw [scaled_cross (fun k => e (ix2 (j 0) k)) (fun k => c (ix2 (j 1) k)) (fun k => he _) (fun k => hc _), ← sub_eq_add_neg]

end Cert.SquaredDistance

end
-- ==== Proof.Consts.lean ====
/-
  The two float constants of this problem as the extended reals their bit patterns denote.

  The kernel's wrapper scales the class centres by the pattern of -2.0 before the product; the reference multiplies the
  product by the pattern of 2.0 and subtracts. Both are exact binary values: sign, exponent 128 (biased), zero fraction.
-/
import Idealize.ShloMosaic.PureOps.Ideal

noncomputable section

namespace Cert.SquaredDistance

open Idealize.ShloMosaic

/-- The pattern of `2.0` denotes the real number 2. -/
theorem ofBits_two : Ideal.ofBits .f32 0x40000000#32 = ((2 : ℝ) : EReal) := by
  simp [Ideal.ofBits, Ideal.ieee, -EReal.coe_mul]; norm_num

/-- The pattern of `-2.0` denotes the real number -2. -/
theorem ofBits_neg_two : Ideal.ofBits .f32 0xC0000000#32 = ((-2 : ℝ) : EReal) := by
  simp [Ideal.ofBits, Ideal.ieee, -EReal.coe_mul]; norm_num

end Cert.SquaredDistance

end
-- ==== Proof.ReferenceValue.lean ====
/-
  The reference computes the distance matrix.

  Read one operation at a time, the reference's result at entry (p, q) is max((0 + Σ_k e[p,k]²) + (0 + Σ_k c[q,k]²)
  - 2 · Σ_k e[p,k] · cᵀ[k,q], 0): the two row sums are broadcast along the other axis, the transposed centres are read
  back at (q, k), and the two zero initial values of the sums vanish. That is `dist` at (p, q).
-/
import proofs.«181522_j22376779612174_2_alg».proof.Proof.Gen.ReferenceIdeal.Read
import proofs.«181522_j22376779612174_2_alg».proof.Proof.SquaredDistance
import proofs.«181522_j22376779612174_2_alg».proof.Proof.Consts

noncomputable section

namespace Cert.ReferenceIdeal.RefValue

open Cert.ReferenceIdeal Cert.ReferenceIdeal.Gen Cert.ReferenceIdeal.Read Idealize.ShloMosaic Idealize.ShloMosaic.ValueIdx
open Cert.SquaredDistance

/-- The reference's last stage, as a function of the two argument arrays, is the matrix of clamped squared distances. -/
theorem val_eq_dist (x0 : (⟨S16384x1024, .f32⟩ : BufTy).Contents (Elt Ideal)) (x1 : (⟨S1000x1024, .f32⟩ : BufTy).Contents (Elt Ideal)) :
    val_main_v15 (F := Ideal) x0 x1 = dist x0 x1 := by
  funext j
  obtain ⟨p, q, rfl⟩ : ∃ (p : Fin 16384) (q : Fin 1000), j = ix2 p q := ⟨j 0, j 1, eq_ix2 j⟩
  rw [dist_ix2]
  -- the embedding's row sum is read at row p, the centres' at row q, whatever the other coordinate
  have hrow_e : ∀ k : Fin 1024, idx_main_v1 (idx_main_v2 (idx_main_v6 (ix2 p q))) k = ix2 p k := fun k =>
    funext fun a => Fin.ext (by match a with | ⟨0, _⟩ => rfl | ⟨1, _⟩ => rfl)
  have hrow_c : ∀ k : Fin 1024, idx_main_v4 (idx_main_v5 (idx_main_v7 (ix2 p q))) k = ix2 q k := fun k =>
    funext fun a => Fin.ext (by match a with | ⟨0, _⟩ => rfl | ⟨1, _⟩ => rfl)
  -- the product's left factor is e[p,k]; its right factor, the transposed centres at (k, q), is c[q,k]
  have hleft : ∀ k : Fin 1024, lidx_main_v10 (ix2 p q) k = ix2 p k := fun k =>
    funext fun a => Fin.ext (by match a with | ⟨0, _⟩ => rfl | ⟨1, _⟩ => rfl)
  have hright : ∀ k : Fin 1024, idx_main_v9 (ridx_main_v10 (ix2 p q) k) = ix2 q k := fun k =>
    funext fun a => Fin.ext (by match a with | ⟨0, _⟩ => rfl | ⟨1, _⟩ => rfl)
  rw [val_main_v15_apply, val_main_v13_apply, val_main_v8_apply, val_main_v6_apply, val_main_v2_apply, val_main_v1_apply,
    val_main_v7_apply, val_main_v5_apply, val_main_v4_apply, val_main_v12_apply, val_main_v11_apply, val_main_v10_apply,
    val_main_v14_apply]
  simp only [val_main_cst_apply, val_main_cst_0_apply, val_main_cst_1_apply, val_main_cst_2_apply, val_main_v0_apply,
    val_main_v3_apply, val_main_v9_apply, hrow_e, hrow_c, hleft, hright, Ideal.ofBits_def, Ideal.mulf_def, Ideal.addf_def,
    Ideal.subf_def, Ideal.maximumf_def, ofBits_two, Ideal.ofBits_zero_f32, zero_add]
  rfl

end Cert.ReferenceIdeal.RefValue

end
-- ==== Proof.LibRowProduct.lean ====
/-
  A product of two matrices contracted along their rows, into a zero accumulator, read at one entry.

  For a matrix `l` of shape `[M, K]` and a matrix `r` of shape `[N, K]`, each contracted over its SECOND axis (the product
  `l · rᵀ`, the form a weight stored as [out, in] is applied in), the entry `(p, c)` on the extended reals is
  `∑ k, l[p, k] · r[c, k]`: the accumulator contributes the real `0`, the contraction index has a single axis of extent `K`
  and is traded for its one coordinate `k`, and the operand indices at the output index `(p, c)` and contraction
  coordinate `k` are `(p, k)` and `(c, k)`.

  The dimension numbers enter only through six facts, which a caller proves for its own record: the contraction shape has
  rank one (`hr`) and extent `K` (`hs`), and the four coordinates of the two operand indices (`hl0`, `hl1`, `hr0`, `hr1`).
  The operands' float formats are arbitrary.
-/
import Idealize.ShloMosaic.Lib.ValueIdx
import Idealize.ShloMosaic.PureOps.Ideal.Laws

noncomputable section

namespace Cert.RowProduct

open Idealize.ShloMosaic Idealize.ShloMosaic.ValueIdx

/-- Entry `(p, c)` of an `[M, K]` by `[N, K]` product over the second axes, into the zero accumulator, is
    `∑ k, l[p, k] · r[c, k]`, for any dimension numbers `D` whose contraction has the one axis of extent `K` and whose operand
    indices read `(p, k)` and `(c, k)`. -/
theorem matmul_zero_entry {M K N : ℕ} (D : DotDims ⟨2, ![M, K]⟩ ⟨2, ![N, K]⟩ ⟨2, ![M, N]⟩)
    (hr : D.contr.rank = 1) (hs : D.contr.size ⟨0, by omega⟩ = K)
    (hl0 : ∀ (j : (⟨2, ![M, N]⟩ : Shape).Idx) (q : D.contr.Idx), (D.lhsIdx j q (0 : Fin 2)).val = (j (0 : Fin 2)).val)
    (hl1 : ∀ (j : (⟨2, ![M, N]⟩ : Shape).Idx) (q : D.contr.Idx), (D.lhsIdx j q (1 : Fin 2)).val = (q ⟨0, by omega⟩).val)
    (hr0 : ∀ (j : (⟨2, ![M, N]⟩ : Shape).Idx) (q : D.contr.Idx), (D.rhsIdx j q (0 : Fin 2)).val = (j (1 : Fin 2)).val)
    (hr1 : ∀ (j : (⟨2, ![M, N]⟩ : Shape).Idx) (q : D.contr.Idx), (D.rhsIdx j q (1 : Fin 2)).val = (q ⟨0, by omega⟩).val)
    {φ₁ φ₂ : FTy} (l : FVec Ideal ⟨2, ![M, K]⟩ φ₁) (r : FVec Ideal ⟨2, ![N, K]⟩ φ₂) (p : Fin M) (c : Fin N) :
    FloatOps.matmul D none l r (constant (F := Ideal) ⟨2, ![M, N]⟩ .f32 0x00000000#32) (ix2 p c)
      = ∑ k : Fin K, l (ix2 p k) * r (ix2 c k) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p c) ((contrEquiv1 D K hr hs).symm k) = ix2 p k :=
    funext fun a => Fin.ext (by
      match a with
      | ⟨0, _⟩ => exact hl0 (ix2 p c) _
      | ⟨1, _⟩ => exact (hl1 (ix2 p c) _).trans hk)
  have er : D.rhsIdx (ix2 p c) ((contrEquiv1 D K hr hs).symm k) = ix2 c k :=
    funext fun a => Fin.ext (by
      match a with
      | ⟨0, _⟩ => exact hr0 (ix2 p c) _
      | ⟨1, _⟩ => exact (hr1 (ix2 p c) _).trans hk)
  rw [el, er]

end Cert.RowProduct

end
-- ==== Proof.LibColumnLayout.lean ====
/-
  A vector laid out as a column, and a column broadcast across many columns.

  Reading a reshape or a broadcast at an index: an `[a]` array cast to `[a, 1]` holds at (i, 0) its entry i, and an
  `[a, 1]` column broadcast to `[a, b]` holds at (p, c) the column's entry p, whatever the column c. These are the forms a
  sum kept as a column (one number per row) takes when it is added back to a matrix row by row.
-/
import Idealize.ShloMosaic.Lib.Pipeline.Value
import Idealize.ShloMosaic.Lib.ValueIdx

namespace Cert.ColumnLayout

open Idealize.ShloMosaic Idealize.ShloMosaic.ValueIdx

variable {α : Type}

/-- An `[a]` array cast to `[a, 1]` reads, at `(i, u)`, the operand at `i`, whatever the unit coordinate `u`: both
    sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry `p`: the row coordinate is kept
    (or is 0 when there is one row), the unit axis is read at 0. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.ColumnLayout
-- ==== Proof.KernelBlock.lean ====
/-
  What the kernel body stores, read at one entry of its block.

  From a [1024, 1024] block `x` of embedding rows, the [1000, 1024] array `y` of scaled centres and the [1, 1000] row `n` of
  centre norms, the body stores at (p, q) the number max((Σ_k x[p,k]² + n[0,q]) + Σ_k x[p,k] · y[q,k], 0): the row sums of
  squares are kept as a column and repeated across the 1000 columns, the norms are one row repeated down the 1024 rows, the
  product contracts the second axis of both operands into a zero accumulator, and narrowing the block to a shorter float
  format before the product changes no value on the extended reals.
-/
import proofs.«181522_j22376779612174_2_alg».proof.Proof.Gen.KernelIdeal.Skeleton
import proofs.«181522_j22376779612174_2_alg».proof.Proof.LibRowProduct
import proofs.«181522_j22376779612174_2_alg».proof.Proof.LibColumnLayout
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Block

open Cert.KernelIdeal Idealize.ShloMosaic Idealize.ShloMosaic.ValueIdx
open Cert.KernelIdeal.Facts₀

/-- The column of row sums of squares, repeated across the columns, holds at (p, q) the sum of the squares of row p. -/
theorem rowSums_apply (x : FVec Ideal S1024x1024 .f32) (p : Fin 1024) (q : Fin 1000) :
    broadcastTo S1024x1000 (shapeCast S1024x1 (multiReduction .add [1] S1024 (mulf x x) 0x00000000#32 reduces_S1024x1024_S1024 (.inl rfl) rfl)
      shapeCasts_S1024_S1024x1) broadcasts_S1024x1_S1024x1000 (ix2 p q)
      = ∑ k : Fin 1024, x (ix2 p k) * x (ix2 p k) := by
  refine (Cert.ColumnLayout.broadcastTo_a1_ab_apply _ broadcasts_S1024x1_S1024x1000 p q).trans ?_
  refine (Cert.ColumnLayout.shapeCast_a_a1_apply _ shapeCasts_S1024_S1024x1 p 0).trans ?_
  refine (Ideal.multiReduction_add_single (mulf x x) 0x00000000#32 reduces_S1024x1024_S1024 (.inl rfl) rfl (ix1 p)).trans ?_
  refine Finset.sum_congr rfl fun k _ => ?_
  have hk : reduces_S1024x1024_S1024.lift (ix1 p) k = ix2 p k :=
    funext fun a => Fin.ext (by match a with | ⟨0, _⟩ => rfl | ⟨1, _⟩ => rfl)
  rw [hk]
  rfl

/-- The row of norms, repeated down the rows, holds at (p, q) the norm of column q. -/
theorem normRow_apply (n : FVec Ideal S1x1000 .f32) (p : Fin 1024) (q : Fin 1000) :
    broadcastTo S1024x1000 (shapeCast S1x1000 n shapeCasts_S1x1000_S1x1000) broadcasts_S1x1000_S1024x1000 (ix2 p q)
      = n (ix2 (0 : Fin 1) q) := by
  refine (broadcastTo_1b_ab_apply _ broadcasts_S1x1000_S1024x1000 p q).trans ?_
  rw [shapeCast_self]

/-- The product of the narrowed block with the scaled centres, both contracted over their second axis, holds at (p, q)
    the sum over k of x[p,k] · y[q,k]. -/
theorem product_apply (x : FVec Ideal S1024x1024 .f32) (y : FVec Ideal S1000x1024 .bf16) (p : Fin 1024) (q : Fin 1000) :
    matmul dot_S1024x1024_S1000x1024_S1024x1000_1_1_0_0_n_n none (truncf .bf16 x bitsLt_bf16_f32)
      (shapeCast S1000x1024 y shapeCasts_S1000x1024_S1000x1024) (constant S1024x1000 .f32 0x00000000#32) (ix2 p q)
      = ∑ k : Fin 1024, x (ix2 p k) * y (ix2 q k) := by
  refine (Cert.RowProduct.matmul_zero_entry dot_S1024x1024_S1000x1024_S1024x1000_1_1_0_0_n_n rfl rfl
    (fun j r => by
      unfold DotDims.lhsIdx
      rw [dif_neg (show ¬(0 : Fin S1024x1024.rank) ∈ dot_S1024x1024_S1000x1024_S1024x1000_1_1_0_0_n_n.lhsBatch by decide),
        dif_pos (show (0 : Fin S1024x1024.rank) ∈ dot_S1024x1024_S1000x1024_S1024x1000_1_1_0_0_n_n.lhsNonContracting by decide)]
      rfl)
    (fun j r => dot_S1024x1024_S1000x1024_S1024x1000_1_1_0_0_n_n.lhsIdx_val_of_single rfl j r)
    (fun j r => by
      unfold DotDims.rhsIdx
      rw [dif_neg (show ¬(0 : Fin S1000x1024.rank) ∈ dot_S1024x1024_S1000x1024_S1024x1000_1_1_0_0_n_n.rhsBatch by decide),
        dif_pos (show (0 : Fin S1000x1024.rank) ∈ dot_S1024x1024_S1000x1024_S1024x1000_1_1_0_0_n_n.rhsNonContracting by decide)]
      rfl)
    (fun j r => dot_S1024x1024_S1000x1024_S1024x1000_1_1_0_0_n_n.rhsIdx_val_of_single rfl j r)
    (truncf .bf16 x bitsLt_bf16_f32) (shapeCast S1000x1024 y shapeCasts_S1000x1024_S1000x1024) p q).trans ?_
  rw [shapeCast_self]
  rfl

/-- The stored value at (p, q). -/
theorem pay_apply (x : FVec Ideal S1024x1024 .f32) (y : FVec Ideal S1000x1024 .bf16) (n : FVec Ideal S1x1000 .f32)
    (p : Fin 1024) (q : Fin 1000) :
    Gen.k0_pay1 x y n (ix2 p q)
      = max ((∑ k : Fin 1024, x (ix2 p k) * x (ix2 p k)) + n (ix2 (0 : Fin 1) q) + ∑ k : Fin 1024, x (ix2 p k) * y (ix2 q k)) 0 := by
  unfold Gen.k0_pay1
  dsimp only
  refine (maximumf_apply _ _ _).trans ?_
  refine congrArg₂ max ?_ Ideal.ofBits_zero_f32
  refine (addf_apply _ _ _).trans ?_
  refine congrArg₂ (· + ·) ?_ (product_apply x y p q)
  refine (addf_apply _ _ _).trans ?_
  exact congrArg₂ (· + ·) (rowSums_apply x p q) (normRow_apply n p q)

end Cert.KernelIdeal.Block

end
-- ==== Proof.LibHostLayout.lean ====
/-
  The host's broadcasts of a vector along the rows or along the columns of a matrix, read at an entry.

  A length-a vector placed as an a × 1 column and that column repeated across b columns holds, at (p, c), the vector's
  entry p. A length-b vector placed as a 1 × b row and that row repeated down a rows holds, at (p, c), the vector's
  entry c. These are the forms a per-row quantity (a row maximum, a row sum) and a bias take when they are combined
  with a matrix entry by entry.
-/
import Idealize.ShloMosaic.Lib.Pipeline.Value
import Idealize.ShloMosaic.Lib.ValueIdx

namespace Cert.HostLayout

open Idealize.ShloMosaic Idealize.ShloMosaic.ValueIdx

variable {α : Type}

/-- An `[a]` array broadcast in dimension 0 to `[a, 1]` reads, at `(p, u)`, the operand at `p`. -/
theorem broadcastInDim_a_a1_apply {a : ℕ} (x : (⟨1, ![a]⟩ : Shape).Idx → α)
    (h : (⟨1, ![a]⟩ : Shape).BroadcastsInDim ⟨2, ![a, 1]⟩ ![0]) (p : Fin a) (u : Fin 1) :
    broadcastInDim ⟨2, ![a, 1]⟩ ![0] h x (ix2 p u) = x (ix1 p) := by
  refine broadcastInDim_apply _ h x (ix2 p u) (ix1 p) fun ax => ?_
  match ax with
  | ⟨0, _⟩ =>
    show p.val = if a = 1 then 0 else p.val
    split
    · have := p.isLt; omega
    · rfl

/-- An `[a, 1]` column broadcast in dimensions (0, 1) to `[a, b]` reads, at `(p, c)`, the column's entry `p`. -/
theorem broadcastInDim_a1_ab_apply {a b : ℕ} (v : (⟨2, ![a, 1]⟩ : Shape).Idx → α)
    (h : (⟨2, ![a, 1]⟩ : Shape).BroadcastsInDim ⟨2, ![a, b]⟩ ![0, 1]) (p : Fin a) (c : Fin b) :
    broadcastInDim ⟨2, ![a, b]⟩ ![0, 1] h v (ix2 p c) = v (ix2 p (0 : Fin 1)) := by
  refine broadcastInDim_apply _ h v (ix2 p c) (ix2 p (0 : Fin 1)) fun ax => ?_
  match ax with
  | ⟨0, _⟩ =>
    show p.val = if a = 1 then 0 else p.val
    split
    · have := p.isLt; omega
    · rfl
  | ⟨1, _⟩ =>
    show (0 : ℕ) = if (1 : ℕ) = 1 then 0 else c.val
    rw [if_pos rfl]

/-- A `[b]` array broadcast in dimension 1 to `[1, b]` reads, at `(u, c)`, the operand at `c`. -/
theorem broadcastInDim_b_1b_apply {b : ℕ} (x : (⟨1, ![b]⟩ : Shape).Idx → α)
    (h : (⟨1, ![b]⟩ : Shape).BroadcastsInDim ⟨2, ![1, b]⟩ ![1]) (u : Fin 1) (c : Fin b) :
    broadcastInDim ⟨2, ![1, b]⟩ ![1] h x (ix2 u c) = x (ix1 c) := by
  refine broadcastInDim_apply _ h x (ix2 u c) (ix1 c) fun ax => ?_
  match ax with
  | ⟨0, _⟩ =>
    show c.val = if b = 1 then 0 else c.val
    split
    · have := c.isLt; omega
    · rfl

/-- A `[1, b]` row broadcast in dimensions (0, 1) to `[a, b]` reads, at `(p, c)`, the row's entry `c`. -/
theorem broadcastInDim_1b_ab_apply {a b : ℕ} (v : (⟨2, ![1, b]⟩ : Shape).Idx → α)
    (h : (⟨2, ![1, b]⟩ : Shape).BroadcastsInDim ⟨2, ![a, b]⟩ ![0, 1]) (p : Fin a) (c : Fin b) :
    broadcastInDim ⟨2, ![a, b]⟩ ![0, 1] h v (ix2 p c) = v (ix2 (0 : Fin 1) c) := by
  refine broadcastInDim_apply _ h v (ix2 p c) (ix2 (0 : Fin 1) c) fun ax => ?_
  match ax with
  | ⟨0, _⟩ =>
    show (0 : ℕ) = if (1 : ℕ) = 1 then 0 else p.val
    rw [if_pos rfl]
  | ⟨1, _⟩ =>
    show c.val = if b = 1 then 0 else c.val
    split
    · have := c.isLt; omega
    · rfl

/-- A rank-0 array broadcast to any shape reads, everywhere, its one entry. -/
theorem broadcastInDim_scalar_apply {t : Shape} (x : (⟨0, ![]⟩ : Shape).Idx → α)
    (h : (⟨0, ![]⟩ : Shape).BroadcastsInDim t ![]) (j : t.Idx) :
    broadcastInDim t ![] h x j = x ix0 :=
  broadcastInDim_apply _ h x j ix0 fun ax => ax.elim0

end Cert.HostLayout
-- ==== Proof.HostPrelude.lean ====
/-
  What the wrapper prepares before the launch, read at an entry.

  Two of the kernel's three input windows stage arrays the wrapper computes from the centres `a` ([1000, 1024]) before the
  launch: the centres scaled entry by entry by the constant -2 and narrowed to a shorter float format (no change of value
  on the extended reals), which holds -2 · a[q,k] at (q, k); and the sums of squares of the centre rows, kept as a column
  and transposed into a [1, 1000] row, which holds Σ_k a[q,k]² at (0, q) (the sum starts from the constant zero).
-/
import proofs.«181522_j22376779612174_2_alg».proof.Proof.Gen.KernelIdeal.Frame
import proofs.«181522_j22376779612174_2_alg».proof.Proof.SquaredDistance
import proofs.«181522_j22376779612174_2_alg».proof.Proof.Consts
import proofs.«181522_j22376779612174_2_alg».proof.Proof.LibHostLayout
import Idealize.ShloMosaic.Lib.ValueIdx
import Idealize.ShloMosaic.Lib.ValueLayout
import Idealize.ShloMosaic.Lib.Pipeline.Value
import Idealize.ShloMosaic.Lib.StableHlo.Run
import Idealize.ShloMosaic.PureOps.Ideal.Laws

noncomputable section

namespace Cert.KernelIdeal.Prelude

open Cert.KernelIdeal Idealize.ShloMosaic Idealize.ShloMosaic.TcCoe Idealize.ShloMosaic.ValueIdx Idealize.SL.Sem
open Cert.KernelIdeal.Facts₀ Cert.SquaredDistance

/-- The centres scaled by the constant -2 and narrowed. -/
def scaledCentres (a : FVec Ideal S1000x1024 .f32) : FVec Ideal S1000x1024 .bf16 :=
  truncf .bf16 (mulf (broadcastInDim S1000x1024 ![] bcast_S_S1000x1024 (constant (F := Ideal) S_ .f32 0xC0000000#32)) a) bitsLt_bf16_f32

/-- The sums of squares of the centre rows, as a [1, 1000] row. -/
def centreNorms (a : FVec Ideal S1000x1024 .f32) : FVec Ideal S1x1000 .f32 :=
  transpose S1x1000 [1, 0] (broadcastInDim S1000x1 ![0] bcast_S1000_S1000x1_0
    (Host.reduceAdd (F := Ideal) (mulf a a) (constant (F := Ideal) S_ .f32 0x00000000#32) reducesTo_S1000x1024_S1000_d1 h_S_))
    transposes_S1000x1_S1x1000_1_0

/-- Entry (q, k) of the scaled centres is -2 · a[q,k]. -/
theorem scaledCentres_apply (a : FVec Ideal S1000x1024 .f32) (q : Fin 1000) (k : Fin 1024) :
    scaledCentres a (ix2 q k) = ((-2 : ℝ) : EReal) * a (ix2 q k) := by
  show broadcastInDim S1000x1024 ![] bcast_S_S1000x1024 (constant (F := Ideal) S_ .f32 0xC0000000#32) (ix2 q k) * a (ix2 q k) = _
  rw [Cert.HostLayout.broadcastInDim_scalar_apply, constant_apply, ofBits_neg_two]

/-- Entry (0, q) of the norms row is the sum of the squares of centre row q. -/
theorem centreNorms_apply (a : FVec Ideal S1000x1024 .f32) (q : Fin 1000) :
    centreNorms a (ix2 (0 : Fin 1) q) = rowSq a q := by
  unfold centreNorms
  refine (transpose_ix2_apply _ transposes_S1000x1_S1x1000_1_0 (0 : Fin 1) q).trans ?_
  refine (Cert.HostLayout.broadcastInDim_a_a1_apply _ bcast_S1000_S1000x1_0 q (0 : Fin 1)).trans ?_
  simp only [Host.reduceAdd, Ideal.hostReduceAdd_def]
  rw [Ideal.hostReduceAdd_single reducesTo_S1000x1024_S1000_d1 (by decide)]
  rw [constant_apply, Ideal.ofBits_zero_f32, zero_add]
  unfold rowSq
  refine Finset.sum_congr rfl fun k _ => ?_
  have hk : (by decide : S1000x1024.Reduces [1] S1000).lift (ix1 q) k = ix2 q k :=
    funext fun b => Fin.ext (by match b with | ⟨0, _⟩ => rfl | ⟨1, _⟩ => rfl)
  rw [hk]
  rfl

variable (m : (ℓ : Loc nD τ sig) → Buf (Elt Ideal) ℓ)

/-- When the region is entered, the array the second window stages holds the scaled centres of the launch's centres. -/
theorem V_scaled (c : Dev nD) :
    (Gen.V m c main_v6 : S1000x1024.Idx → EReal) = scaledCentres (m ((c : Thread nD τ).loc main_arg1)) := by
  dsimp only [Gen.V, Gen.hostOps0]
  after_results
  rfl

/-- When the region is entered, the array the third window stages holds the norms row of the launch's centres. -/
theorem V_norms (c : Dev nD) :
    (Gen.V m c main_v3 : S1x1000.Idx → EReal) = centreNorms (m ((c : Thread nD τ).loc main_arg1)) := by
  dsimp only [Gen.V, Gen.hostOps0]
  after_results
  rfl

end Cert.KernelIdeal.Prelude

end
-- ==== Proof.KernelValue.lean ====
/-
  The kernel's result array as one function of the launch's two arrays.

  The grid has 16 points. At point t the body reads rows 1024·t … 1024·t + 1023 of the embedding (the first window moves
  down one block per point), the whole array of scaled centres and the whole row of centre norms (those two windows stay at
  block (0, 0)), and writes back rows 1024·t … 1024·t + 1023 of the result. Entry (p, q) of what it writes is therefore the
  squared distance, in the arrangement with the centres scaled first, between embedding row 1024·t + p and centre row q.
  The 16 row blocks tile the [16384, 1000] result: row r lies in the block of point r / 1024. So the result array is the
  scaled-first distance matrix of the launch's arrays.
-/
import proofs.«181522_j22376779612174_2_alg».proof.Proof.Gen.KernelIdeal.Value
import proofs.«181522_j22376779612174_2_alg».proof.Proof.KernelBlock
import proofs.«181522_j22376779612174_2_alg».proof.Proof.HostPrelude
import proofs.«181522_j22376779612174_2_alg».proof.Proof.SquaredDistance

noncomputable section

namespace Cert.KernelIdeal.Whole

open Cert.KernelIdeal Cert.KernelIdeal.Gen Idealize.ShloMosaic Idealize.ShloMosaic.TcCoe Idealize.ShloMosaic.ValueIdx Idealize.SL.Sem
open Idealize.ShloMosaic.Pipeline (Dat)
open Cert.SquaredDistance

variable (m : (ℓ : Loc nD τ sig) → Buf (Elt Ideal) ℓ) (ρ : Dev nD → PrngReg)

theorem hz : (![0, 0] : Fin 2 → Nat) = fun _ => 0 := funext fun a => by fin_cases a <;> rfl

/-- The grid has 16 points. -/
theorem hN : cfg0.N = 16 := N_0

/-- The printed index maps over the grid: the embedding's window and the result's window are at row block t, column
    block 0; the two windows the wrapper prepared stay at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The embedding's block at point t holds, at (p, k), the launch's embedding at row 1024·t + p. -/
theorem embBlock_apply (c : Dev nD) (t : Fin cfg0.N) (p k : Fin 1024) (r : Fin 16384) (hr : r.val = t.val * 1024 + p.val) :
    (iblk m c 0 t : Vec Ideal S1024x1024 .f32) (ix2 p k)
      = (m ((c : Thread nD τ).loc main_arg0) : S16384x1024.Idx → EReal) (ix2 r k) := by
  obtain ⟨e0, e1, -⟩ := idx_facts t
  unfold iblk
  rw [View.read_apply]
  show V m c main_arg0 _ = _
  rw [V_main_arg0]
  refine congrArg (m ((c : Thread nD τ).loc main_arg0) : S16384x1024.Idx → EReal) (funext fun a => Fin.ext ?_)
  match a with
  | ⟨0, _⟩ => show win0_0.index t 0 * 1024 + 1 * p.val = r.val; rw [e0, hr]; omega
  | ⟨1, _⟩ => show win0_0.index t 1 * 1024 + 1 * k.val = k.val; rw [e1]; omega

/-- The scaled centres' block at any point is the whole array the wrapper prepared: -2 times the launch's centres. -/
theorem centreBlock_apply (c : Dev nD) (t : Fin cfg0.N) (q : Fin 1000) (k : Fin 1024) :
    (iblk m c 1 t : Vec Ideal S1000x1024 .bf16) (ix2 q k)
      = ((-2 : ℝ) : EReal) * (m ((c : Thread nD τ).loc main_arg1) : S1000x1024.Idx → EReal) (ix2 q k) := by
  obtain ⟨-, -, e2, e3, -⟩ := idx_facts t
  unfold iblk
  rw [View.read_apply]
  show (V m c main_v6 : S1000x1024.Idx → EReal) _ = _
  rw [Prelude.V_scaled, ← Prelude.scaledCentres_apply]
  refine congrArg (Prelude.scaledCentres _) (funext fun a => Fin.ext ?_)
  match a with
  | ⟨0, _⟩ => show win0_1.index t 0 * 1000 + 1 * q.val = q.val; rw [e2]; omega
  | ⟨1, _⟩ => show win0_1.index t 1 * 1024 + 1 * k.val = k.val; rw [e3]; omega

/-- The norms' block at any point is the whole row the wrapper prepared: the sums of squares of the centre rows. -/
theorem normBlock_apply (c : Dev nD) (t : Fin cfg0.N) (q : Fin 1000) :
    (iblk m c 2 t : Vec Ideal S1x1000 .f32) (ix2 (0 : Fin 1) q)
      = rowSq (m ((c : Thread nD τ).loc main_arg1) : S1000x1024.Idx → EReal) q := by
  obtain ⟨-, -, -, -, e4, e5, -⟩ := idx_facts t
  unfold iblk
  rw [View.read_apply]
  show (V m c main_v3 : S1x1000.Idx → EReal) _ = _
  rw [Prelude.V_norms, ← Prelude.centreNorms_apply]
  refine congrArg (Prelude.centreNorms _) (funext fun a => Fin.ext ?_)
  match a with
  | ⟨0, _⟩ => show win0_2.index t 0 * 1 + 1 * 0 = 0; rw [e4]
  | ⟨1, _⟩ => show win0_2.index t 1 * 1000 + 1 * q.val = q.val; rw [e5]; omega

/-- The stored value at (p, q) of three blocks that hold row r of the embedding, the scaled centres and the norms. -/
theorem stored_apply (x : FVec Ideal S1024x1024 .f32) (y : FVec Ideal S1000x1024 .bf16) (n : FVec Ideal S1x1000 .f32)
    (e : S16384x1024.Idx → EReal) (a : S1000x1024.Idx → EReal) (r : Fin 16384) (p : Fin 1024) (q : Fin 1000)
    (hx : ∀ k : Fin 1024, x (ix2 p k) = e (ix2 r k))
    (hy : ∀ k : Fin 1024, y (ix2 q k) = ((-2 : ℝ) : EReal) * a (ix2 q k))
    (hn : n (ix2 (0 : Fin 1) q) = rowSq a q) :
    k0_pay1 (F := Ideal) x y n (ix2 p q) = scaledDistAt e a r q := by
  rw [Block.pay_apply]
  unfold scaledDistAt
  rw [hn]
  unfold rowSq
  simp only [hx, hy]

/-- What point t writes back is block t of the scaled-first distance matrix of the launch's arrays. -/
theorem flushed_eq (c : Dev nD) (t : Fin cfg0.N) :
    (dats m 0 c).flushed 3 t = ((cfg0.win 3).blk t).view.read (Elt Ideal)
      (scaledDist (m ((c : Thread nD τ).loc main_arg0)) (m ((c : Thread nD τ).loc main_arg1))) := by
  rw [Value.flushed3]
  unfold out0_3
  rw [View.canon_unit_zero hz]
  simp only [View.ld_unit_zero (S := S1024x1024) hz, View.ld_unit_zero (S := S1000x1024) hz, View.ld_unit_zero (S := S1x1000) hz]
  funext y
  obtain ⟨p, q, rfl⟩ : ∃ (p : Fin 1024) (q : Fin 1000), y = ix2 p q := ⟨y 0, y 1, eq_ix2 y⟩
  have hlt : t.val * 1024 + p.val < 16384 := by have := t.isLt; have := hN; omega
  obtain ⟨-, -, -, -, -, -, e6, e7⟩ := idx_facts t
  have hemb : ((cfg0.win 3).blk t).view.emb (ix2 p q) = ix2 (⟨t.val * 1024 + p.val, hlt⟩ : Fin 16384) q :=
    funext fun a => Fin.ext (by
      match a with
      | ⟨0, _⟩ => show win0_3.index t 0 * 1024 + 1 * p.val = t.val * 1024 + p.val; rw [e6]; omega
      | ⟨1, _⟩ => show win0_3.index t 1 * 1000 + 1 * q.val = q.val; rw [e7]; omega)
  rw [View.read_apply, hemb, scaledDist_ix2]
  exact stored_apply (iblk m c 0 t) (iblk m c 1 t) (iblk m c 2 t) _ _ ⟨t.val * 1024 + p.val, hlt⟩ p q
    (fun k => embBlock_apply m c t p k _ rfl) (fun k => centreBlock_apply m c t q k) (normBlock_apply m c t q)

/-- An index of the result is in point t's block iff each coordinate is in the block's range on its axis. -/
theorem mem_blk (t : Fin cfg0.N) (i : S16384x1000.Idx) :
    i ∈ ((cfg0.win 3).blk t).view.set ↔ ∀ a : Fin 2, win0_3.index t a * S1024x1000.size a ≤ (i a).val
      ∧ (i a).val < win0_3.index t a * S1024x1000.size a + S1024x1000.size a := by
  show i ∈ ((View.whole main_v7).slice (win0_3.rect t)).set ↔ _
  rw [View.set_slice_whole, Rect.mem_set_unit]
  exact Iff.rfl

/-- Every index of the result lies in the block of the point its row falls in. -/
theorem cover (i : S16384x1000.Idx) :
    ∃ t : Fin cfg0.N, (cfg0.win 3).flush t = true ∧ i ∈ ((cfg0.win 3).blk t).view.set := by
  have hi0 : (i 0).val < 16384 := (i 0).isLt
  have hi1 : (i 1).val < 1000 := (i 1).isLt
  have ht : (i 0).val / 1024 < cfg0.N := by rw [hN]; omega
  obtain ⟨-, -, -, -, -, -, e6, e7⟩ := idx_facts ⟨(i 0).val / 1024, ht⟩
  refine ⟨⟨(i 0).val / 1024, ht⟩, flush0_3 _, ?_⟩
  rw [mem_blk]
  intro a
  match a with
  | ⟨0, _⟩ =>
    show win0_3.index ⟨(i 0).val / 1024, ht⟩ 0 * 1024 ≤ (i 0).val ∧ (i 0).val < win0_3.index ⟨(i 0).val / 1024, ht⟩ 0 * 1024 + 1024
    rw [e6]; show (i 0).val / 1024 * 1024 ≤ (i 0).val ∧ (i 0).val < (i 0).val / 1024 * 1024 + 1024; omega
  | ⟨1, _⟩ =>
    show win0_3.index ⟨(i 0).val / 1024, ht⟩ 1 * 1000 ≤ (i 1).val ∧ (i 1).val < win0_3.index ⟨(i 0).val / 1024, ht⟩ 1 * 1000 + 1000
    rw [e7]; omega

/-- The result array after the run is the scaled-first distance matrix of the launch's arrays. -/
theorem final (c : Dev nD) : (dats m 0 c).arrAt 3 cfg0.N
    = scaledDist (m ((c : Thread nD τ).loc main_arg0)) (m ((c : Thread nD τ).loc main_arg1)) :=
  (dats m 0 c).arrAt_eq_of_cover 3 _ (fun t _ => flushed_eq m c t) cover

/-- The kernel's run: it terminates with the result at that matrix and the two arguments unchanged. -/
theorem run : θ_run defs (onTc (τ := τ) (main (F := Ideal))) ⟨m, fun _ => 0, ρ⟩ fun r => ∀ c : Dev nD,
      r.2.mem ((c : Thread nD τ).loc main_v7)
        = scaledDist (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Whole

end
-- ==== Proof.Finite.lean ====
/-
  From the precondition to real numbers.

  The precondition says that, for each of the two input arrays, the conjunction over all entries of |x| < +∞ is true,
  where |x| is max(x, -x) on the extended reals. An extended real whose absolute value is below +∞ is neither +∞ nor -∞,
  so every entry of both arrays is a real number.
-/
import proofs.«181522_j22376779612174_2_alg».proof.Pre_finite_inputs
import proofs.«181522_j22376779612174_2_alg».proof.Proof.Gen.Pre_finite_inputs
import Idealize.ShloMosaic.Lib.ReduceAll
import Idealize.ShloMosaic.Lib.ValueIdx
import Idealize.ShloMosaic.Lib.Pipeline.Value
import Idealize.ShloMosaic.PureOps.Ideal.Laws

noncomputable section

namespace Cert.Pre_finite_inputs.Finite

open Cert.Pre_finite_inputs Cert.Pre_finite_inputs.Facts Idealize.ShloMosaic Idealize.ShloMosaic.ValueIdx

/-- The shape with no axis has one index. -/
instance : Subsingleton S_.Idx := ⟨fun a b => funext fun d => d.elim0⟩

/-- The pattern with all exponent bits set and a zero fraction denotes +∞. -/
theorem ofBits_inf : Ideal.ofBits .f32 0x7F800000#32 = ⊤ := by simp [Ideal.ofBits, Ideal.ieee]

/-- An extended real whose absolute value is below +∞ is neither infinity. -/
theorem finite_of_abs_lt (x : EReal) (h : max x (-x) < ⊤) : x ≠ ⊤ ∧ x ≠ ⊥ := by
  constructor
  · rintro rfl; simp at h
  · rintro rfl; simp at h

/-- The ordered "less than" comparison yields the bit 1 only when the first number is smaller. -/
theorem lt_of_cmp_olt (x y : EReal) (h : Ideal.cmp .olt x y = 1#1) : x < y := by
  by_contra hn
  simp [Ideal.cmp, hn] at h

/-- One entry of an array compared against the broadcast +∞: the bit 1 says the entry is a real number. -/
theorem finite_of_bit {S : Shape} (a : FVec Ideal S .f32) (hb : S_.BroadcastsInDim S (![] : Fin 0 → Fin S.rank)) (i : S.Idx)
    (hi : cmpf CmpFPredicate.olt (Host.absf a) (broadcastInDim S ![] hb (constant (F := Ideal) S_ .f32 0x7F800000#32)) i = 1#1) :
    a i ≠ ⊤ ∧ a i ≠ ⊥ := by
  have e := broadcastInDim_apply (![] : Fin 0 → Fin S.rank) hb (constant (F := Ideal) S_ .f32 0x7F800000#32) i ix0
    (fun ax => ax.elim0)
  rw [cmpf_apply, e, constant_apply, ofBits_inf] at hi
  exact finite_of_abs_lt _ (lt_of_cmp_olt _ _ hi)

/-- Under the precondition every entry of both input arrays is a real number. -/
theorem finite_of_pre (a0 : FVec Ideal S16384x1024 .f32) (a1 : FVec Ideal S1000x1024 .f32)
    (h : fn (F := Ideal) a0 a1 = fun _ => 1#1) : (∀ i, a0 i ≠ ⊤ ∧ a0 i ≠ ⊥) ∧ (∀ i, a1 i ≠ ⊤ ∧ a1 i ≠ ⊥) := by
  have h0 := congrFun h ix0
  dsimp only [fn] at h0
  obtain ⟨h1, h2⟩ := IntOp.andi_eq_one.1 h0
  exact ⟨fun i => finite_of_bit a0 bcast_S_S16384x1024 i
      (Host.reduce_andi_all _ _ reducesTo_S16384x1024_S_d0_1 h_S_ ix0 h1 i),
    fun i => finite_of_bit a1 bcast_S_S1000x1024 i
      (Host.reduce_andi_all _ _ reducesTo_S1000x1024_S_d0_1 h_S_ ix0 h2 i)⟩

end Cert.Pre_finite_inputs.Finite

end
-- ==== Proof.lean ====
/-
  Pairwise squared distances between 16384 embedding rows and 1000 class centres: the kernel against its reference.

  Both programs compute, for embedding row e_p and centre row c_q of length 1024, the number
  max(|e_p|² + |c_q|² - 2⟨e_p, c_q⟩, 0). The reference forms the whole product matrix, doubles it and subtracts. The kernel's
  wrapper first scales the centres by -2 and computes the centre norms; the kernel then, for each block of 1024 embedding
  rows, adds the row norms, the centre norms and the product of the block with the scaled centres, and clamps at zero.
  Narrowing to a shorter float format before the product changes nothing on the extended reals, and the block-by-block
  order of the rows changes nothing either. What differs is where the factor -2 sits: inside every product of the sum
  (kernel) or outside the whole sum (reference). Moving a factor across a finite sum is distributivity, which on the
  extended reals needs every summand to be a real number — and that is what the precondition gives: every entry of both
  inputs is finite.

  The modules: `SquaredDistance` states the distance matrix in both arrangements and proves them equal for real entries;
  `ReferenceValue` reads the reference's operations at an entry; `KernelBlock` reads what the kernel body stores at an
  entry of its block; `HostPrelude` reads the two arrays the wrapper prepares; `KernelValue` puts the 16 row blocks
  together into the whole result; `Finite` turns the precondition into "every entry is a real number".
-/
import proofs.«181522_j22376779612174_2_alg».proof.Defs
import proofs.«181522_j22376779612174_2_alg».proof.Proof.Gen.Kernel
import proofs.«181522_j22376779612174_2_alg».proof.Proof.Gen.Kernel.Skeleton
import proofs.«181522_j22376779612174_2_alg».proof.Proof.Gen.Kernel.Launch
import proofs.«181522_j22376779612174_2_alg».proof.Proof.Gen.Kernel.Points
import proofs.«181522_j22376779612174_2_alg».proof.Proof.Gen.Kernel.Frame
import proofs.«181522_j22376779612174_2_alg».proof.Proof.Gen.KernelIdeal
import proofs.«181522_j22376779612174_2_alg».proof.Proof.Gen.KernelIdeal.Skeleton
import proofs.«181522_j22376779612174_2_alg».proof.Proof.Gen.KernelIdeal.Launch
import proofs.«181522_j22376779612174_2_alg».proof.Proof.Gen.KernelIdeal.Points
import proofs.«181522_j22376779612174_2_alg».proof.Proof.Gen.KernelIdeal.Frame
import proofs.«181522_j22376779612174_2_alg».proof.Proof.Gen.ReferenceIdeal
import proofs.«181522_j22376779612174_2_alg».proof.Proof.Gen.Pre_finite_inputs
import proofs.«181522_j22376779612174_2_alg».proof.Proof.Gen.KernelIdeal.Value
import proofs.«181522_j22376779612174_2_alg».proof.Proof.Gen.ReferenceIdeal.Run
import proofs.«181522_j22376779612174_2_alg».proof.Proof.Gen.ReferenceIdeal.Read
import proofs.«181522_j22376779612174_2_alg».proof.Proof.SquaredDistance
import proofs.«181522_j22376779612174_2_alg».proof.Proof.ReferenceValue
import proofs.«181522_j22376779612174_2_alg».proof.Proof.KernelValue
import proofs.«181522_j22376779612174_2_alg».proof.Proof.Finite
import Idealize.ShloMosaic.Adequacy
import Idealize.ShloMosaic.Init

noncomputable section

namespace Cert.Proof

open Idealize.ShloMosaic Idealize.ShloMosaic.TcCoe Idealize.SL.Sem

/-- The kernel as printed terminates without a fault and leaves its two arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference is a straight line of host operations: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation of the kernel. -/
theorem preserves : Cert.preserves_Kernel_KernelIdeal := trivial

/-- From memories that agree on the two inputs, both programs end with the matrix of clamped squared distances of those
    inputs: the reference in the arrangement with the factor outside the sum, the kernel in the arrangement with the
    centres scaled first, which is the same matrix because the inputs are finite. -/
theorem algebraic : Cert.algebraic_KernelIdeal_ReferenceIdeal := by
  intro m ρ m' ρ' hpre hagree
  refine ⟨fun c => Cert.SquaredDistance.dist (m ((c : Thread Cert.KernelIdeal.nD Cert.KernelIdeal.τ).loc Cert.KernelIdeal.main_arg0))
    (m ((c : Thread Cert.KernelIdeal.nD Cert.KernelIdeal.τ).loc Cert.KernelIdeal.main_arg1)), ?_, ?_⟩
  · refine (θ_run Cert.KernelIdeal.defs _ _).mono (fun r h c => ⟨(h c).1.trans ?_, (h c).2⟩) (Cert.KernelIdeal.Whole.run m ρ)
    obtain ⟨he, hc⟩ := Cert.Pre_finite_inputs.Finite.finite_of_pre _ _ (hpre c)
    exact Cert.SquaredDistance.scaledDist_eq_dist _ _ he hc
  · refine (θ_run Cert.ReferenceIdeal.defs _ _).mono (fun r h c => ⟨(h c).1.trans ?_, (h c).2⟩)
      (Cert.ReferenceIdeal.Value.run (F := Ideal) m' ρ')
    rw [Cert.ReferenceIdeal.Read.val_main_v15_eq, Cert.ReferenceIdeal.RefValue.val_eq_dist, (hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
